-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S128x128 : Shape := ⟨2, ![128, 128]⟩
abbrev S128 : Shape := ⟨1, ![128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S32768x128 .f32) (main_arg1 : FVec F S128x128 .f32) (main_arg2 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S32768x128 : Shape := ⟨2, ![32768, 128]⟩
abbrev S128x128 : Shape := ⟨2, ![128, 128]⟩
abbrev S128 : Shape := ⟨1, ![128]⟩
abbrev S128x1 : Shape := ⟨2, ![128, 1]⟩
abbrev S128x32768 : Shape := ⟨2, ![128, 32768]⟩
abbrev S4x32x32768 : Shape := ⟨3, ![4, 32, 32768]⟩
abbrev S32768x4x32 : Shape := ⟨3, ![32768, 4, 32]⟩
abbrev S2048x128 : Shape := ⟨2, ![2048, 128]⟩
abbrev S128x2048 : Shape := ⟨2, ![128, 2048]⟩

abbrev nBuf : Space → Nat
  | .hbm => 7
  | .vmem => 6
  | .smem => 0
  | _ => 0

abbrev bufTy : (tb : Table) → Fin (tcTables nBuf tb) → BufTy
  | .hbm, ⟨0, _⟩ => ⟨S32768x128, .f32⟩
  | .hbm, ⟨1, _⟩ => ⟨S128x128, .f32⟩
  | .hbm, ⟨2, _⟩ => ⟨S128, .f32⟩
  | .hbm, ⟨3, _⟩ => ⟨S128x1, .f32⟩
  | .hbm, ⟨4, _⟩ => ⟨S128x32768, .f32⟩
  | .hbm, ⟨5, _⟩ => ⟨S4x32x32768, .f32⟩
  | .hbm, ⟨6, _⟩ => ⟨S32768x4x32, .f32⟩
  | .local _ .vmem, ⟨0, _⟩ => ⟨S2048x128, .f32⟩
  | .local _ .vmem, ⟨1, _⟩ => ⟨S2048x128, .f32⟩
  | .local _ .vmem, ⟨2, _⟩ => ⟨S128x128, .f32⟩
  | .local _ .vmem, ⟨3, _⟩ => ⟨S128x1, .f32⟩
  | .local _ .vmem, ⟨4, _⟩ => ⟨S128x2048, .f32⟩
  | .local _ .vmem, ⟨5, _⟩ => ⟨S128x2048, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S128x1 : S128.ShapeCasts S128x1
  shapeCasts_S128x32768_S4x32x32768 : S128x32768.ShapeCasts S4x32x32768
  transposes_S4x32x32768_S32768x4x32_2_0_1 : S4x32x32768.Transposes [2, 0, 1] S32768x4x32
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x2048 : S128x1.Broadcasts S128x2048
  inb_S128x2048_S128x2048_0_0 : ∀ a, (![0, 0] : Fin 2 → Nat) a + S128x2048.size a ≤ S128x2048.size a
  h_S128x2048 : 0 < S128x2048.numel
  dot_S128x128_S2048x128_S128x2048_0_1_1_0_n_n_wf : DotDims.WF S128x128 S2048x128 S128x2048 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S32768x128.size a
  hwx0_0 : ∀ i : grid0.Coords, EltTy.bits .f32 = 32 ∨ (Rect.block (s := S32768x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S128x32768.size a
  hwx0_3 : ∀ i : grid0.Coords, EltTy.bits .f32 = 32 ∨ (Rect.block (s := S128x32768) S128x2048.size (cc0_transform_3 i) (hinb0_3 i)).WholeWords (EltTy.packing .f32)

variable [Facts₀]

def dot_S128x128_S2048x128_S128x2048_0_1_1_0_n_n : DotDims S128x128 S2048x128 S128x2048 where
  lhsContracting := [0]
  rhsContracting := [1]
  lhsNonContracting := [1]
  rhsNonContracting := [0]
  lhsBatch := []
  rhsBatch := []
  wf := dot_S128x128_S2048x128_S128x2048_0_1_1_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x128 : Shape := ⟨2, ![32768, 128]⟩
abbrev S128x128 : Shape := ⟨2, ![128, 128]⟩
abbrev S128 : Shape := ⟨1, ![128]⟩
abbrev S1x128 : Shape := ⟨2, ![1, 128]⟩
abbrev S32768x4x32 : Shape := ⟨3, ![32768, 4, 32]⟩

abbrev nBuf : Space → Nat
  | .hbm => 8
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S128x128, .f32⟩
  | .hbm, ⟨2, _⟩ => ⟨S128, .f32⟩
  | .hbm, ⟨3, _⟩ => ⟨S32768x128, .f32⟩
  | .hbm, ⟨4, _⟩ => ⟨S1x128, .f32⟩
  | .hbm, ⟨5, _⟩ => ⟨S32768x128, .f32⟩
  | .hbm, ⟨6, _⟩ => ⟨S32768x128, .f32⟩
  | .hbm, ⟨7, _⟩ => ⟨S32768x4x32, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S32768x4x32 : S32768x128.ShapeCasts S32768x4x32
  dot_S32768x128_S128x128_S32768x128_1_0_0_1_n_n_wf : DotDims.WF S32768x128 S128x128 S32768x128 [1] [0] [0] [1] [] []

variable [Facts₀]

def dot_S32768x128_S128x128_S32768x128_1_0_0_1_n_n : DotDims S32768x128 S128x128 S32768x128 where
  lhsContracting := [1]
  rhsContracting := [0]
  lhsNonContracting := [0]
  rhsNonContracting := [1]
  lhsBatch := []
  rhsBatch := []
  wf := dot_S32768x128_S128x128_S32768x128_1_0_0_1_n_n_wf

class Facts : Prop extends Facts₀ where

variable [Facts]
-- ==== Proof.Spec.lean ====
/-
  The projection both programs compute, as one function of the three argument arrays.

  For a token `r` (a row of `x : [32768, 128]`) and an output feature `n` (a column of `W : [128, 128]`),
      affine x W b r n = Σ_k W[k, n] · x[r, k] + b[n]
  on the extended reals. The result array `[32768, 4, 32]` holds at `(r, h, d)` the feature `n = 32·h + d` of token `r`
  (`byHead`): the 128 features of a token cut into 4 heads of 32. The array `[128, 32768]` holding at `(n, r)` feature `n`
  of token `r` (`byFeature`) is the same numbers with the token axis last.
  The sum is over a commutative monoid and each term a product in a commutative monoid, so no finiteness is needed to
  compare two programs that differ in the order of the factors and in the layout of the result only.
-/
import Idealize.ShloMosaic.PureOps.Ideal
import Idealize.ShloMosaic.Lib.ValueIdx

noncomputable section

open scoped BigOperators

namespace Cert.Proj

open Idealize.ShloMosaic Idealize.ShloMosaic.ValueIdx

/-- The tokens `x`: 32768 rows of 128 input features. -/
abbrev Tok : Shape := ⟨2, ![32768, 128]⟩
/-- The weights `W`: input feature × output feature. -/
abbrev Wgt : Shape := ⟨2, ![128, 128]⟩
/-- The bias `b`: one entry per output feature. -/
abbrev Bias : Shape := ⟨1, ![128]⟩
/-- Output feature × token. -/
abbrev FeatTok : Shape := ⟨2, ![128, 32768]⟩
/-- Token × head × feature within the head. -/
abbrev Heads : Shape := ⟨3, ![32768, 4, 32]⟩

/-- Output feature `n` of token `r`: `Σ_k W[k, n] · x[r, k] + b[n]`. -/
def affine (x : FVec Ideal Tok .f32) (W : FVec Ideal Wgt .f32) (b : FVec Ideal Bias .f32) (r : Fin 32768) (n : Fin 128) : EReal :=
  (∑ k : Fin 128, W (ix2 k n) * x (ix2 r k)) + b (ix1 n)

/-- The output feature that head `h` holds at position `d`: `32·h + d`. -/
def feat (h : Fin 4) (d : Fin 32) : Fin 128 :=
  ⟨h.val * 32 + d.val, by have := h.isLt; have := d.isLt; omega⟩

theorem feat_val (h : Fin 4) (d : Fin 32) : (feat h d).val = h.val * 32 + d.val := rfl

/-- The projection laid out feature × token. -/
def byFeature (x : FVec Ideal Tok .f32) (W : FVec Ideal Wgt .f32) (b : FVec Ideal Bias .f32) : FVec Ideal FeatTok .f32 :=
  fun j => affine x W b (j 1) (j 0)

/-- The projection laid out token × head × position: the result of both programs. -/
def byHead (x : FVec Ideal Tok .f32) (W : FVec Ideal Wgt .f32) (b : FVec Ideal Bias .f32) : FVec Ideal Heads .f32 :=
  fun i => affine x W b (i 0) (feat (i 1) (i 2))

theorem byFeature_apply (x : FVec Ideal Tok .f32) (W : FVec Ideal Wgt .f32) (b : FVec Ideal Bias .f32) (n : Fin 128) (r : Fin 32768) :
    byFeature x W b (ix2 n r) = affine x W b r n := rfl

theorem byHead_apply (x : FVec Ideal Tok .f32) (W : FVec Ideal Wgt .f32) (b : FVec Ideal Bias .f32) (r : Fin 32768) (h : Fin 4) (d : Fin 32) :
    byHead x W b (ix3 r h d) = affine x W b r (feat h d) := rfl

end Cert.Proj

end
-- ==== Proof.RefIsSpec.lean ====
/-
  The reference computes the projection: its result at `(r, h, d)` is `(x · W + b)` at row `r` and column `32·h + d`
  — the reshape `[32768, 128] → [32768, 4, 32]` keeps the row-major position, `(4r + h)·32 + d = 128·r + (32·h + d)` —,
  the matrix product's element is `Σ_k x[r, k] · W[k, n]`, and the bias is broadcast along the rows. Against `affine`
  only the order of the two factors of each term differs.
-/
import proofs.«174578_g19215683682323_cont_8to1_1854_16_alg».proof.Proof.Gen.ReferenceIdeal.Read
import proofs.«174578_g19215683682323_cont_8to1_1854_16_alg».proof.Proof.Spec

noncomputable section

open scoped BigOperators

namespace Cert.ReferenceIdeal.RefValue

open Cert.ReferenceIdeal Cert.ReferenceIdeal.Read Idealize.ShloMosaic Idealize.ShloMosaic.ValueIdx Cert.Proj

/-- The reference's last stage, at the ideal instance, is the projection laid out by heads. -/
theorem ref_eq (x : FVec Ideal S32768x128 .f32) (W : FVec Ideal S128x128 .f32) (b : FVec Ideal S128 .f32) :
    val_main_v4 (F := Ideal) x W b = byHead x W b := by
  funext i
  obtain ⟨r, h, d, rfl⟩ : ∃ (r : Fin 32768) (h : Fin 4) (d : Fin 32), i = ix3 r h d := ⟨i 0, i 1, i 2, eq_ix3 i⟩
  have hr := r.isLt
  have hh := h.isLt
  have hd := d.isLt
  -- the row and the column the reshape reads
  have el : ∀ k : Fin 128, lidx_main_v0 (idx_main_v4 (ix3 r h d)) k = ix2 r k := fun k =>
    funext fun a => Fin.ext (by
      match a with
      | ⟨0, _⟩ => show ((r.val * 4 + h.val) * 32 + d.val) / 128 = r.val; omega
      | ⟨1, _⟩ => rfl)
  have er : ∀ k : Fin 128, ridx_main_v0 (idx_main_v4 (ix3 r h d)) k = ix2 k (feat h d) := fun k =>
    funext fun a => Fin.ext (by
      match a with
      | ⟨0, _⟩ => rfl
      | ⟨1, _⟩ => show ((r.val * 4 + h.val) * 32 + d.val) % 128 = h.val * 32 + d.val; omega)
  have eb : idx_main_v1 (idx_main_v2 (idx_main_v4 (ix3 r h d))) = ix1 (feat h d) :=
    funext fun a => Fin.ext (by
      match a with
      | ⟨0, _⟩ => show ((r.val * 4 + h.val) * 32 + d.val) % 128 = h.val * 32 + d.val; omega)
  rw [val_main_v4_apply, val_main_v3_apply, val_main_v0_apply, val_main_v2_apply, val_main_v1_apply, eb, byHead_apply]
  unfold affine
  rw [Ideal.addf_def]
  refine congrArg (· + b (ix1 (feat h d))) (Finset.sum_congr rfl fun k _ => ?_)
  rw [el k, er k, mul_comm]

end Cert.ReferenceIdeal.RefValue

end
-- ==== Proof.Payload.lean ====
/-
  What the kernel body computes from its three loaded blocks, read at one element.

  The body multiplies the weight block `w : [128, 128]` (input feature × output feature) with the token block
  `xb : [2048, 128]` (token × input feature), contracting the weights' FIRST axis with the tokens' SECOND, so the product is
  laid out output feature × token: its element `(n, q)` is `Σ_k w[k, n] · xb[q, k]`. The roundings of the two operands are the
  identity on the extended reals, and the accumulator is the zero array. The bias column `[128, 1]` is spread along the
  token axis and added: element `(n, q)` of the stored value is `Σ_k w[k, n] · xb[q, k] + bias[n, 0]`.
-/
import proofs.«174578_g19215683682323_cont_8to1_1854_16_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The weights are read at (contraction position, the product's row) … -/
theorem lhs_contr (j : S128x2048.Idx) (p : dot_S128x128_S2048x128_S128x2048_0_1_1_0_n_n.contr.Idx) :
    (dot_S128x128_S2048x128_S128x2048_0_1_1_0_n_n.lhsIdx j p 0).val = (p ⟨0, by decide⟩).val :=
  dot_S128x128_S2048x128_S128x2048_0_1_1_0_n_n.lhsIdx_val_of_single rfl j p
theorem lhs_free (j : S128x2048.Idx) (p : dot_S128x128_S2048x128_S128x2048_0_1_1_0_n_n.contr.Idx) :
    (dot_S128x128_S2048x128_S128x2048_0_1_1_0_n_n.lhsIdx j p 1).val = (j 0).val := by
  unfold DotDims.lhsIdx
  rw [dif_neg (show ¬(1 : Fin S128x128.rank) ∈ dot_S128x128_S2048x128_S128x2048_0_1_1_0_n_n.lhsBatch by decide), dif_pos (show (1 : Fin S128x128.rank) ∈ dot_S128x128_S2048x128_S128x2048_0_1_1_0_n_n.lhsNonContracting by decide)]
  rfl
/-- … and the tokens at (the product's column, contraction position). -/
theorem rhs_contr (j : S128x2048.Idx) (p : dot_S128x128_S2048x128_S128x2048_0_1_1_0_n_n.contr.Idx) :
    (dot_S128x128_S2048x128_S128x2048_0_1_1_0_n_n.rhsIdx j p 1).val = (p ⟨0, by decide⟩).val :=
  dot_S128x128_S2048x128_S128x2048_0_1_1_0_n_n.rhsIdx_val_of_single rfl j p
theorem rhs_free (j : S128x2048.Idx) (p : dot_S128x128_S2048x128_S128x2048_0_1_1_0_n_n.contr.Idx) :
    (dot_S128x128_S2048x128_S128x2048_0_1_1_0_n_n.rhsIdx j p 0).val = (j 1).val := by
  unfold DotDims.rhsIdx
  rw [dif_neg (show ¬(0 : Fin S2048x128.rank) ∈ dot_S128x128_S2048x128_S128x2048_0_1_1_0_n_n.rhsBatch by decide), dif_pos (show (0 : Fin S2048x128.rank) ∈ dot_S128x128_S2048x128_S128x2048_0_1_1_0_n_n.rhsNonContracting by decide)]
  rfl

/-- The product into the zero accumulator, at output feature `n` and token `q` of the block: `Σ_k w[k, n] · xb[q, k]`. -/
theorem product_at (w : FVec Ideal S128x128 .bf16) (xb : FVec Ideal S2048x128 .bf16) (n : Fin 128) (q : Fin 2048) :
    FloatOps.matmul dot_S128x128_S2048x128_S128x2048_0_1_1_0_n_n none w xb (constant (F := Ideal) S128x2048 .f32 0x00000000#32) (ix2 n q)
      = ∑ k : Fin 128, w (ix2 k n) * xb (ix2 q k) := by
  rw [Ideal.matmul_constant_zero_apply, ← Equiv.sum_comp (contrEquiv1 dot_S128x128_S2048x128_S128x2048_0_1_1_0_n_n 128 rfl rfl).symm]
  refine Finset.sum_congr rfl fun k _ => ?_
  have hk := contrEquiv1_symm_val dot_S128x128_S2048x128_S128x2048_0_1_1_0_n_n 128 rfl rfl k
  have el : dot_S128x128_S2048x128_S128x2048_0_1_1_0_n_n.lhsIdx (ix2 n q) ((contrEquiv1 dot_S128x128_S2048x128_S128x2048_0_1_1_0_n_n 128 rfl rfl).symm k) = ix2 k n := funext fun a => Fin.ext (by
    match a with
    | ⟨0, _⟩ => exact (lhs_contr _ _).trans hk
    | ⟨1, _⟩ => exact lhs_free _ _)
  have er : dot_S128x128_S2048x128_S128x2048_0_1_1_0_n_n.rhsIdx (ix2 n q) ((contrEquiv1 dot_S128x128_S2048x128_S128x2048_0_1_1_0_n_n 128 rfl rfl).symm k) = ix2 q k := funext fun a => Fin.ext (by
    match a with
    | ⟨0, _⟩ => exact rhs_free _ _
    | ⟨1, _⟩ => exact (rhs_contr _ _).trans hk)
  rw [el, er]

/-- The bias column spread along the token axis reads its row's one entry. -/
theorem bias_at (bc : FVec Ideal S128x1 .f32) (n : Fin 128) (q : Fin 2048) :
    broadcastTo S128x2048 (shapeCast S128x1 bc Facts₀.shapeCasts_S128x1_S128x1) Facts₀.broadcasts_S128x1_S128x2048 (ix2 n q) = bc (ix2 n 0) := by
  rw [shapeCast_self]
  exact broadcastTo_apply bc _ (ix2 n q) (ix2 n 0) (fun a => match a with
    | ⟨0, _⟩ => by show n.val = if (128 : Nat) = 1 then 0 else n.val; rw [if_neg (by decide)]
    | ⟨1, _⟩ => by show (0 : Nat) = if (1 : Nat) = 1 then 0 else q.val; rw [if_pos rfl])

/-- The value the body stores, at output feature `n` and token `q` of the block. -/
theorem payload_at (x0 : Vec Ideal S2048x128 .f32) (x1 : Vec Ideal S128x128 .f32) (x2 : Vec Ideal S128x1 .f32) (n : Fin 128) (q : Fin 2048) :
    k0_pay1 (F := Ideal) x0 x1 x2 (ix2 n q) = (∑ k : Fin 128, x1 (ix2 k n) * x0 (ix2 q k)) + x2 (ix2 n 0) := by
  unfold k0_pay1
  refine (addf_apply _ _ _).trans ?_
  refine congrArg₂ (· + ·) ?_ ?_
  · exact product_at _ _ n q
  · exact bias_at x2 n q

end Cert.KernelIdeal.Hand

end
-- ==== Proof.Blocks.lean ====
/-
  From the kernel's blocks to its whole output array.

  The grid has 16 points. At point `t` the kernel is given tokens `2048·t … 2048·t + 2047` (a block of rows of `x`), the
  whole of `W`, and the whole bias column (the bias `b` reshaped to `[128, 1]` before the kernel starts), and it writes back
  block `(0, t)` of the array `[128, 32768]`: columns `2048·t … 2048·t + 2047`. By the element reading of the body's stored
  value, what point `t` writes back is that block of ONE function of the arguments, the projection laid out
  output feature × token. Every column lies in the block of the point `column / 2048`, so after the last point the array is
  that function.
-/
import proofs.«174578_g19215683682323_cont_8to1_1854_16_alg».proof.Proof.Gen.KernelIdeal.Frame
import proofs.«174578_g19215683682323_cont_8to1_1854_16_alg».proof.Proof.Payload
import proofs.«174578_g19215683682323_cont_8to1_1854_16_alg».proof.Proof.Spec
import Idealize.ShloMosaic.Lib.Pipeline.Value
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Proj
open Idealize.ShloMosaic.Pipeline (Dat)

variable (m : (ℓ : Loc nD τ sig) → Buf (Elt Ideal) ℓ) (ρ : Dev nD → PrngReg)

theorem offsets_zero : (![0, 0] : Fin 2 → Nat) = fun _ => 0 := funext fun a => by fin_cases a <;> rfl

/-- The printed index maps over the 16 points: the token window is at block row `t`, the weights and the bias column at
    their one block, the output at block column `t`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- Token `q` of the block of point `t`, as a row of `x`. -/
def tokenOf (t : Fin cfg0.N) (q : Fin 2048) : Fin 32768 :=
  ⟨t.val * 2048 + q.val, by have h : t.val < 16 := lt_of_lt_of_eq t.isLt N_0; have := q.isLt; omega⟩

theorem tokenOf_val (t : Fin cfg0.N) (q : Fin 2048) : (tokenOf t q).val = t.val * 2048 + q.val := rfl

/-- The token window's block at point `t` is rows `2048·t + q` of `x`. -/
theorem tokens_block (c : Dev nD) (t : Fin cfg0.N) (q : Fin 2048) (k : Fin 128) :
    (iblk m c 0 t : Vec Ideal S2048x128 .f32) (ix2 q k) = m ((c : Thread nD τ).loc main_arg0) (ix2 (tokenOf t q) k) := by
  obtain ⟨e0, e1, -⟩ := index_maps t
  unfold iblk
  rw [View.read_apply]
  refine (congrFun (V_main_arg0 m c) _).trans ?_
  refine congrArg _ (funext fun a => Fin.ext ?_)
  match a with
  | ⟨0, _⟩ => show win0_0.index t (0 : Fin 2) * 2048 + 1 * q.val = t.val * 2048 + q.val; omega
  | ⟨1, _⟩ => show win0_0.index t (1 : Fin 2) * 128 + 1 * k.val = k.val; omega

/-- The weight window's block at every point is `W`. -/
theorem weights_block (c : Dev nD) (t : Fin cfg0.N) (k n : Fin 128) :
    (iblk m c 1 t : Vec Ideal S128x128 .f32) (ix2 k n) = m ((c : Thread nD τ).loc main_arg1) (ix2 k n) := by
  obtain ⟨-, -, e2, e3, -⟩ := index_maps t
  unfold iblk
  rw [View.read_apply]
  refine (congrFun (V_main_arg1 m c) _).trans ?_
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * n.val = n.val; omega

/-- The bias column as the kernel finds it: `b` reshaped to `[128, 1]` by the one host operation before the kernel. -/
theorem bias_column (c : Dev nD) :
    (V m c main_call0_v0 : S128x1.Idx → EReal)
      = shapeCast S128x1 (m ((c : Thread nD τ).loc main_arg2) : S128.Idx → EReal) Facts₀.shapeCasts_S128_S128x1 := by
  show StableHlo.after hostOps0 (fun b => m (c, b)) (Proc.devRef .tc main_call0_v0) = _
  after_results
  rfl

/-- The bias window's block at every point is that column: entry `(n, 0)` is `b[n]`. -/
theorem bias_block (c : Dev nD) (t : Fin cfg0.N) (n : Fin 128) :
    (iblk m c 2 t : Vec Ideal S128x1 .f32) (ix2 n 0) = m ((c : Thread nD τ).loc main_arg2) (ix1 n) := by
  obtain ⟨-, -, -, -, e4, e5, -⟩ := index_maps t
  unfold iblk
  rw [View.read_apply]
  have hcol : ∀ j : S128x1.Idx, (V m c main_call0_v0 : S128x1.Idx → EReal) j = m ((c : Thread nD τ).loc main_arg2) (ix1 (j 0)) := fun j => by
    rw [bias_column]
    exact shapeCast_apply _ Facts₀.shapeCasts_S128_S128x1 j (ix1 (j 0))
      (by rw [Shape.rowMajor_val_one, Shape.rowMajor_val_two]
          have h1 : (j 1).val < 1 := (j 1).isLt
          show (j 0).val = (j 0).val * 1 + (j 1).val
          omega)
  refine (hcol _).trans ?_
  refine congrArg _ (funext fun a => Fin.ext ?_)
  match a with
  | ⟨0, _⟩ => show win0_2.index t (0 : Fin 2) * 128 + 1 * n.val = n.val; omega

/-- The stored value at point `t`, at output feature `n` and token `q` of the block, is the projection at feature `n`
    of token `2048·t + q`: each loaded block read where it sits in its argument. -/
theorem block_value (c : Dev nD) (t : Fin cfg0.N) (n : Fin 128) (q : Fin 2048) :
    k0_pay1 (F := Ideal) (iblk m c 0 t) (iblk m c 1 t) (iblk m c 2 t) (ix2 n q)
      = byFeature (m ((c : Thread nD τ).loc main_arg0)) (m ((c : Thread nD τ).loc main_arg1)) (m ((c : Thread nD τ).loc main_arg2)) (ix2 n (tokenOf t q)) := by
  refine (payload_at (iblk m c 0 t) (iblk m c 1 t) (iblk m c 2 t) n q).trans ?_
  show _ = affine _ _ _ (tokenOf t q) n
  unfold affine
  rw [bias_block m c t n]
  refine congrArg (· + _) (Finset.sum_congr rfl fun k _ => ?_)
  rw [weights_block m c t k n, tokens_block m c t q k]

/-- WHAT POINT `t` WRITES BACK is block `t` of the projection laid out output feature × token. -/
theorem flushed_eq (c : Dev nD) (t : Fin cfg0.N) :
    (dats m 0 c).flushed 3 t = ((cfg0.win 3).blk t).view.read (Elt Ideal)
      (byFeature (m ((c : Thread nD τ).loc main_arg0)) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero offsets_zero]
  simp only [View.ld_unit_zero (S := S2048x128) offsets_zero, View.ld_unit_zero (S := S128x128) offsets_zero, View.ld_unit_zero (S := S128x1) offsets_zero]
  obtain ⟨-, -, -, -, -, -, e6, e7⟩ := index_maps t
  refine funext fun j => ?_
  obtain ⟨n, q, rfl⟩ : ∃ (n : Fin 128) (q : Fin 2048), j = ix2 n q := ⟨j 0, j 1, eq_ix2 j⟩
  show k0_pay1 (F := Ideal) (iblk m c 0 t) (iblk m c 1 t) (iblk m c 2 t) (ix2 n q) = byFeature _ _ _ (((cfg0.win 3).blk t).view.emb (ix2 n q))
  refine (block_value m c t n q).trans ?_
  refine congrArg _ (funext fun a => Fin.ext ?_)
  match a with
  | ⟨0, _⟩ => show n.val = win0_3.index t (0 : Fin 2) * 128 + 1 * n.val; omega
  | ⟨1, _⟩ => show t.val * 2048 + q.val = win0_3.index t (1 : Fin 2) * 2048 + 1 * q.val; omega

/-- An index of the array is in point `t`'s block iff each coordinate is in the block's range on its axis. -/
theorem mem_blk (t : Fin cfg0.N) (i : S128x32768.Idx) :
    i ∈ ((cfg0.win 3).blk t).view.set ↔ ∀ a : Fin 2, win0_3.index t a * S128x2048.size a ≤ (i a).val ∧ (i a).val < win0_3.index t a * S128x2048.size a + S128x2048.size a := by
  show i ∈ ((View.whole main_call0_v1).slice (win0_3.rect t)).set ↔ _
  rw [View.set_slice_whole, Rect.mem_set_unit]
  exact Iff.rfl

/-- Column `i 1` lies in the block of point `(i 1) / 2048`, which writes back. -/
theorem covered (i : S128x32768.Idx) :
    ∃ t : Fin cfg0.N, (cfg0.win 3).flush t = true ∧ i ∈ ((cfg0.win 3).blk t).view.set := by
  have h0 : (i 0).val < 128 := (i 0).isLt
  have h1 : (i 1).val < 32768 := (i 1).isLt
  have hN : cfg0.N = 16 := N_0
  have hlt : (i 1).val / 2048 < cfg0.N := by rw [hN]; omega
  obtain ⟨-, -, -, -, -, -, e6, e7⟩ := index_maps ⟨(i 1).val / 2048, hlt⟩
  refine ⟨⟨(i 1).val / 2048, hlt⟩, flush0_3 _, ?_⟩
  rw [mem_blk]
  intro a
  match a with
  | ⟨0, _⟩ =>
    show win0_3.index ⟨(i 1).val / 2048, hlt⟩ (0 : Fin 2) * 128 ≤ (i 0).val ∧ (i 0).val < win0_3.index ⟨(i 1).val / 2048, hlt⟩ (0 : Fin 2) * 128 + 128
    omega
  | ⟨1, _⟩ =>
    show win0_3.index ⟨(i 1).val / 2048, hlt⟩ (1 : Fin 2) * 2048 ≤ (i 1).val ∧ (i 1).val < win0_3.index ⟨(i 1).val / 2048, hlt⟩ (1 : Fin 2) * 2048 + 2048
    have e7' : win0_3.index ⟨(i 1).val / 2048, hlt⟩ (1 : Fin 2) = (i 1).val / 2048 := e7
    omega

/-- THE ARRAY after the last point is the projection laid out output feature × token. -/
theorem array_after (c : Dev nD) :
    (dats m 0 c).arrAt 3 cfg0.N
      = byFeature (m ((c : Thread nD τ).loc main_arg0)) (m ((c : Thread nD τ).loc main_arg1)) (m ((c : Thread nD τ).loc main_arg2)) :=
  (dats m 0 c).arrAt_eq_of_cover 3 _ (fun t _ => flushed_eq m c t) covered

end Cert.KernelIdeal.Hand

end
-- ==== Proof.Relayout.lean ====
/-
  The two host operations after the kernel, read at one element: the array `[128, 32768]` (output feature × token) is cut
  along its first axis into `[4, 32, 32768]` (head × position × token; feature `n = 32·h + d` sits at `(h, d)`, the
  row-major position unchanged), and the axes are permuted to token × head × position. So the result at `(r, h, d)` is the
  array at `(32·h + d, r)`: the projection laid out by feature becomes the projection laid out by heads.
-/
import proofs.«174578_g19215683682323_cont_8to1_1854_16_alg».proof.KernelIdeal
import proofs.«174578_g19215683682323_cont_8to1_1854_16_alg».proof.Proof.Spec
import Idealize.ShloMosaic.Lib.Pipeline.Value
import Idealize.ShloMosaic.Lib.ValueIdx

noncomputable section

namespace Cert.KernelIdeal.Hand

open Cert.KernelIdeal Idealize.ShloMosaic Idealize.ShloMosaic.ValueIdx Cert.Proj

variable [Cert.KernelIdeal.Facts]

/-- The cut into heads followed by the permutation of the axes reads `(r, h, d)` at `(32·h + d, r)`. -/
theorem heads_of_features_at (y : FVec Ideal S128x32768 .f32) (r : Fin 32768) (h : Fin 4) (d : Fin 32) :
    transpose S32768x4x32 [2, 0, 1] (shapeCast S4x32x32768 y Facts₀.shapeCasts_S128x32768_S4x32x32768)
        Facts₀.transposes_S4x32x32768_S32768x4x32_2_0_1 (ix3 r h d)
      = y (ix2 (feat h d) r) := by
  have hr := r.isLt
  have hh := h.isLt
  have hd := d.isLt
  refine (transpose_apply _ _ Facts₀.transposes_S4x32x32768_S32768x4x32_2_0_1 (ix3 r h d) (ix3 h d r) (fun b => ?_)).trans ?_
  · match b with
    | ⟨0, _⟩ => rfl
    | ⟨1, _⟩ => rfl
    | ⟨2, _⟩ => rfl
  · exact shapeCast_apply y Facts₀.shapeCasts_S128x32768_S4x32x32768 (ix3 h d r) (ix2 (feat h d) r)
      (by rw [Shape.rowMajor_val_two, Shape.rowMajor_val_three]
          show (h.val * 32 + d.val) * 32768 + r.val = (h.val * 32 + d.val) * 32768 + r.val
          rfl)

/-- Applied to the projection laid out by feature they give the projection laid out by heads. -/
theorem heads_of_features (x : FVec Ideal Tok .f32) (W : FVec Ideal Wgt .f32) (b : FVec Ideal Bias .f32) :
    transpose S32768x4x32 [2, 0, 1] (shapeCast S4x32x32768 (byFeature x W b : FVec Ideal S128x32768 .f32) Facts₀.shapeCasts_S128x32768_S4x32x32768)
        Facts₀.transposes_S4x32x32768_S32768x4x32_2_0_1
      = byHead x W b := by
  funext i
  obtain ⟨r, h, d, rfl⟩ : ∃ (r : Fin 32768) (h : Fin 4) (d : Fin 32), i = ix3 r h d := ⟨i 0, i 1, i 2, eq_ix3 i⟩
  rw [heads_of_features_at, byFeature_apply, byHead_apply]

end Cert.KernelIdeal.Hand

end
-- ==== Proof.KernelRun.lean ====
/-
  The idealized kernel's run, read: after the 16 points the array `[128, 32768]` is the projection laid out
  output feature × token; the two host operations after the kernel cut its features into heads and move the token axis
  first, so the result is the projection laid out token × head × position. The three arguments end as launched.
-/
import proofs.«174578_g19215683682323_cont_8to1_1854_16_alg».proof.Proof.Blocks
import proofs.«174578_g19215683682323_cont_8to1_1854_16_alg».proof.Proof.Relayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Proj
open Idealize.ShloMosaic.Pipeline (Dat)

variable (m : (ℓ : Loc nD τ sig) → Buf (Elt Ideal) ℓ) (ρ : Dev nD → PrngReg)

/-- The result buffer after the two host operations that follow the kernel is the projection laid out by heads. -/
theorem result_eq (c : Dev nD) :
    Pipeline.afterTail₀ cfgs (dats m) 0 (V0 m) [hostOps1] c main_v0
      = byHead (m ((c : Thread nD τ).loc main_arg0)) (m ((c : Thread nD τ).loc main_arg1)) (m ((c : Thread nD τ).loc main_arg2)) := by
  have harr : Pipeline.withArrays (cfgs 0).spec c (V0 m c) (fun w => (dats m 0 c).arrAt w (cfgs 0).N) (Proc.devRef .tc main_call0_v1)
      = byFeature (m ((c : Thread nD τ).loc main_arg0)) (m ((c : Thread nD τ).loc main_arg1)) (m ((c : Thread nD τ).loc main_arg2)) :=
    (Pipeline.withArrays_arr spec0 launch0.win.arr_inj c _ _ 3).trans (array_after m c)
  unfold Pipeline.afterTail₀
  show StableHlo.after hostOps1 _ (Proc.devRef .tc main_v0) = _
  after_results
  show transpose S32768x4x32 [2, 0, 1]
      (shapeCast S4x32x32768
        (Pipeline.withArrays (cfgs 0).spec c (V0 m c) (fun w => (dats m 0 c).arrAt w (cfgs 0).N) (Proc.devRef .tc main_call0_v1) : FVec Ideal S128x32768 .f32)
        Facts₀.shapeCasts_S128x32768_S4x32x32768)
      Facts₀.transposes_S4x32x32768_S32768x4x32_2_0_1 = _
  rw [harr]
  exact heads_of_features _ _ _

/-- THE RUN of the idealized kernel: every weakly fair execution terminates with the result buffer at the projection laid
    out by heads and the three arguments as launched. -/
theorem run : θ_run defs (onTc (τ := τ) (main (F := Ideal))) ⟨m, fun _ => 0, ρ⟩ fun r => ∀ c : Dev nD,
      r.2.mem ((c : Thread nD τ).loc main_v0)
        = byHead (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v0 (Pipeline.mem_restRefs_of main_v0 (by decide) (by decide))).trans (result_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).2 main_arg2 (Pipeline.mem_restRefs_of main_arg2 (by decide) (by decide))).trans (W_main_arg2 m (dats m) c)⟩)
    (run_main m ρ)

end Cert.KernelIdeal.Hand

end
-- ==== Proof.lean ====
/-
  A dense projection with the features cut into heads: `x : [32768, 128]`, `W : [128, 128]`, `b : [128]`, and the result
  `[32768, 4, 32]` holding at `(r, h, d)` the number `Σ_k x[r, k] · W[k, 32·h + d] + b[32·h + d]`.

  The kernel computes the product TRANSPOSED, output feature × token, 2048 tokens per grid point: at each of its 16 points
  it multiplies `W` (contracted along its first axis) with a block of 2048 rows of `x` (contracted along its second) and adds
  the bias column; the host then cuts the 128 features into 4 heads of 32 and moves the token axis first. The reference
  multiplies `x` by `W`, adds `b` along the rows and cuts the columns into heads. On the extended reals the two differ only
  in the order of the two factors of each product and in the layout of intermediate arrays: the sums run over the same 128
  terms, and multiplication commutes, so the results agree element by element with no assumption on the inputs' finiteness
  (the rounding of the kernel's operands to a narrower format is the identity on the extended reals).

  The modules: `Spec` states the projection (`affine`, `byFeature`, `byHead`); `RefIsSpec` reads the reference's generated
  run as `byHead`; `Payload` reads the kernel body's stored value at one element; `Blocks` shows each grid point writes
  back a block of `byFeature` and that the blocks cover the array; `Relayout` reads the two host operations after the kernel;
  `KernelRun` puts the kernel's run together. The frames of the two kernel programs are the generated ones; the reference's
  frame is its generated run with the result dropped; nothing was rewritten by the idealization, so `preserves` is trivial.
-/
import proofs.«174578_g19215683682323_cont_8to1_1854_16_alg».proof.Defs
import proofs.«174578_g19215683682323_cont_8to1_1854_16_alg».proof.Proof.Gen.Kernel
import proofs.«174578_g19215683682323_cont_8to1_1854_16_alg».proof.Proof.Gen.Kernel.Frame
import proofs.«174578_g19215683682323_cont_8to1_1854_16_alg».proof.Proof.Gen.KernelIdeal
import proofs.«174578_g19215683682323_cont_8to1_1854_16_alg».proof.Proof.Gen.KernelIdeal.Frame
import proofs.«174578_g19215683682323_cont_8to1_1854_16_alg».proof.Proof.Gen.ReferenceIdeal
import proofs.«174578_g19215683682323_cont_8to1_1854_16_alg».proof.Proof.Gen.ReferenceIdeal.Run
import proofs.«174578_g19215683682323_cont_8to1_1854_16_alg».proof.Proof.Gen.ReferenceIdeal.Read
import proofs.«174578_g19215683682323_cont_8to1_1854_16_alg».proof.Proof.Gen.Pre_finite_inputs
import proofs.«174578_g19215683682323_cont_8to1_1854_16_alg».proof.Proof.RefIsSpec
import proofs.«174578_g19215683682323_cont_8to1_1854_16_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the projection laid out token × head × position of the same three arguments. -/
theorem algebraic : Cert.algebraic_KernelIdeal_ReferenceIdeal := by
  intro m ρ m' ρ' _ hagree
  refine ⟨fun c => Cert.Proj.byHead
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
